-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192 : Shape := ⟨2, ![1, 8192]⟩
abbrev S8192x8192 : Shape := ⟨2, ![8192, 8192]⟩
abbrev S8192 : Shape := ⟨1, ![8192]⟩
abbrev S_ : Shape := ⟨0, ![]⟩

class Facts : Prop where
  bcast_S_S1x8192 : S_.BroadcastsInDim S1x8192 (![] : Fin 0 → Fin S1x8192.rank)
  reducesTo_S1x8192_S_d0_1 : S1x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192x8192 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S8192x8192 .f32 := Host.absf main_arg4
  let main_cst_6 : FVec F S_ .f32 := constant S_ .f32 0x7F800000#32
  let main_v20 : FVec F S8192x8192 .f32 := broadcastInDim S8192x8192 ![] bcast_S_S8192x8192 main_cst_6
  let main_v21 : IVec S8192x8192 1 := cmpf .olt main_v19 main_v20
  let main_c_7 : IVec S_ 1 := constantI S_ 1 1#1
  let main_v22 : IVec S_ 1 := (fun x v => Host.reduce IntOp.andi x v reducesTo_S8192x8192_S_d0_1 h_S_) main_v21 main_c_7
  let main_v23 : IVec S_ 1 := andi main_v18 main_v22
  main_v23

def fn {F : FTy → Type} [FloatOps F] (main_arg0 : FVec F S1x8192 .f32) (main_arg1 : FVec F S8192x8192 .f32) (main_arg2 : FVec F S8192 .f32) (main_arg3 : FVec F S8192 .f32) (main_arg4 : FVec F S8192x8192 .f32) : IVec S_ 1 :=
  let main_v0 : FVec F S1x8192 .f32 := Host.absf main_arg0
  let main_cst : FVec F S_ .f32 := constant S_ .f32 0x7F800000#32
  let main_v1 : FVec F S1x8192 .f32 := broadcastInDim S1x8192 ![] bcast_S_S1x8192 main_cst
  let main_v2 : IVec S1x8192 1 := cmpf .olt main_v0 main_v1
  let main_c : IVec S_ 1 := constantI S_ 1 1#1
  let main_v3 : IVec S_ 1 := (fun x v => Host.reduce IntOp.andi x v reducesTo_S1x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg4 main_v13 main_v16
-- ==== Kernel.lean ====
abbrev S1x8192 : Shape := ⟨2, ![1, 8192]⟩
abbrev S8192x8192 : Shape := ⟨2, ![8192, 8192]⟩
abbrev S8192 : Shape := ⟨1, ![8192]⟩
abbrev S128x8192 : Shape := ⟨2, ![128, 8192]⟩
abbrev S1x128 : Shape := ⟨2, ![1, 128]⟩
abbrev S128x1 : Shape := ⟨2, ![128, 1]⟩
abbrev S128x2048 : Shape := ⟨2, ![128, 2048]⟩
abbrev S1x2048 : Shape := ⟨2, ![1, 2048]⟩

abbrev nBuf : Space → Nat
  | .hbm => 12
  | .vmem => 15
  | .smem => 0
  | _ => 0

abbrev bufTy : (tb : Table) → Fin (tcTables nBuf tb) → BufTy
  | .hbm, ⟨0, _⟩ => ⟨S1x8192, .f32⟩
  | .hbm, ⟨1, _⟩ => ⟨S8192x8192, .f32⟩
  | .hbm, ⟨2, _⟩ => ⟨S8192, .f32⟩
  | .hbm, ⟨3, _⟩ => ⟨S8192, .f32⟩
  | .hbm, ⟨4, _⟩ => ⟨S8192x8192, .f32⟩
  | .hbm, ⟨5, _⟩ => ⟨S1x8192, .f32⟩
  | .hbm, ⟨6, _⟩ => ⟨S1x8192, .f32⟩
  | .hbm, ⟨7, _⟩ => ⟨S1x8192, .f32⟩
  | .hbm, ⟨8, _⟩ => ⟨S1x8192, .f32⟩
  | .hbm, ⟨9, _⟩ => ⟨S8192x8192, .f32⟩
  | .hbm, ⟨10, _⟩ => ⟨S8192, .f32⟩
  | .hbm, ⟨11, _⟩ => ⟨S8192, .f32⟩
  | .local _ .vmem, ⟨0, _⟩ => ⟨S1x8192, .f32⟩
  | .local _ .vmem, ⟨1, _⟩ => ⟨S128x8192, .f32⟩
  | .local _ .vmem, ⟨2, _⟩ => ⟨S128x8192, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S128x8192, .f32⟩
  | .local _ .vmem, ⟨8, _⟩ => ⟨S128x8192, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S128x8192, .f32⟩
  | .local _ .vmem, ⟨14, _⟩ => ⟨S128x8192, .f32⟩
  | _, _ => ⟨S1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c4_i32 : BitVec 32 := 4#32
  let v27 : BitVec 32 := Scalar.addi c0_i32 c4_i32
  let c1_i32 : BitVec 32 := 1#32
  ⟨c0_i32, v27, c1_i32⟩
def k0_mult1 (k0_t1 : Fin k0_t1_loop.trips) : BitVec 32 :=
  let c0_i32_17 : BitVec 32 := 0#32
  let c0_i32 : BitVec 32 := 0#32
  let c1_i32 : BitVec 32 := 1#32
  let arg9 : BitVec 32 := Scf.iv c0_i32 c1_i32 k0_t1
  let c1_i32_16 : BitVec 32 := 1#32
  let v28 : BitVec 32 := Scalar.muli arg9 c1_i32_16
  let v29 : BitVec 32 := Scalar.addi c0_i32_17 v28
  let c2048_i32 : BitVec 32 := 2048#32
  let v30 : BitVec 32 := Scalar.muli v29 c2048_i32
  v30
def k0_off1 (k0_t1 : Fin k0_t1_loop.trips) : Fin 2 → Nat :=
  let c0_18 : Index := 0#32
  let c0_i32_17 : BitVec 32 := 0#32
  let c0_i32 : BitVec 32 := 0#32
  let c1_i32 : BitVec 32 := 1#32
  let arg9 : BitVec 32 := Scf.iv c0_i32 c1_i32 k0_t1
  let c1_i32_16 : BitVec 32 := 1#32
  let v28 : BitVec 32 := Scalar.muli arg9 c1_i32_16
  let v29 : BitVec 32 := Scalar.addi c0_i32_17 v28
  let c2048_i32 : BitVec 32 := 2048#32
  let v30 : BitVec 32 := Scalar.muli v29 c2048_i32
  let v31 : BitVec 32 := v30
  let v32 : Index := Scalar.indexCast v31
  ![0, v32.toNat]
def k0_off2 (k0_t1 : Fin k0_t1_loop.trips) : Fin 2 → Nat :=
  let c0_19 : Index := 0#32
  let c0_i32_17 : BitVec 32 := 0#32
  let c0_i32 : BitVec 32 := 0#32
  let c1_i32 : BitVec 32 := 1#32
  let arg9 : BitVec 32 := Scf.iv c0_i32 c1_i32 k0_t1
  let c1_i32_16 : BitVec 32 := 1#32
  let v28 : BitVec 32 := Scalar.muli arg9 c1_i32_16
  let v29 : BitVec 32 := Scalar.addi c0_i32_17 v28
  let c2048_i32 : BitVec 32 := 2048#32
  let v30 : BitVec 32 := Scalar.muli v29 c2048_i32
  let v31 : BitVec 32 := v30
  let v34 : Index := Scalar.indexCast v31
  ![0, v34.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S8192_S1x8192 : S8192.ShapeCasts S1x8192
  inb_S1x8192_S1x8192_0_0 : ∀ a, (![0, 0] : Fin 2 → Nat) a + S1x8192.size a ≤ S1x8192.size a
  h_S1x8192 : 0 < S1x8192.numel
  bitsLt_bf16_f32 : FTy.bits .bf16 < FTy.bits .f32
  inb_S128x8192_S128x8192_0_0 : ∀ a, (![0, 0] : Fin 2 → Nat) a + S128x8192.size a ≤ S128x8192.size a
  h_S128x8192 : 0 < S128x8192.numel
  natLt_1_32 : 1 < 32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  transposes_S1x128_p1_0_S128x1 : S1x128.Transposes [1, 0] S128x1
  h_S128x2048 : 0 < S128x2048.numel
  h_S1x2048 : 0 < S1x2048.numel
  broadcasts_S128x1_S128x2048 : S128x1.Broadcasts S128x2048
  broadcasts_S1x2048_S128x2048 : S1x2048.Broadcasts S128x2048
  shapeCasts_S1x8192_S8192 : S1x8192.ShapeCasts S8192
  dot_S1x8192_S128x8192_S1x128_1_1_0_0_n_n_wf : DotDims.WF S1x8192 S128x8192 S1x128 [1] [1] [0] [0] [] []
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S128x2048.size a ≤ S128x8192.size a
  k0_off2_inb : ∀ k0_t1 : Fin k0_t1_loop.trips, ∀ a, (k0_off2 k0_t1) a + S1x2048.size a ≤ S1x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x8192.size a ≤ S1x8192.size a
  hwx0_0 : ∀ i : grid0.Coords, EltTy.bits .f32 = 32 ∨ (Rect.block (s := S1x8192) S1x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S8192x8192.size a
  hwx0_1 : ∀ i : grid0.Coords, EltTy.bits .f32 = 32 ∨ (Rect.block (s := S8192x8192) S128x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x8192.size a
  hwx0_2 : ∀ i : grid0.Coords, EltTy.bits .f32 = 32 ∨ (Rect.block (s := S1x8192) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x8192.size a
  hwx0_3 : ∀ i : grid0.Coords, EltTy.bits .f32 = 32 ∨ (Rect.block (s := S1x8192) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x8192.size a ≤ S8192x8192.size a
  hwx0_4 : ∀ i : grid0.Coords, EltTy.bits .f32 = 32 ∨ (Rect.block (s := S8192x8192) S128x8192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x8192.size a
  hwx0_5 : ∀ i : grid0.Coords, EltTy.bits .f32 = 32 ∨ (Rect.block (s := S1x8192) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x8192.size a
  hwx0_6 : ∀ i : grid0.Coords, EltTy.bits .f32 = 32 ∨ (Rect.block (s := S1x8192) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x8192.size a ≤ S8192x8192.size a
  hwx0_7 : ∀ i : grid0.Coords, EltTy.bits .f32 = 32 ∨ (Rect.block (s := S8192x8192) S128x8192.size (cc0_transform_7 i) (hinb0_7 i)).WholeWords (EltTy.packing .f32)

variable [Facts₀]

def dot_S1x8192_S128x8192_S1x128_1_1_0_0_n_n : DotDims S1x8192 S128x8192 S1x128 where
  lhsContracting := [1]
  rhsContracting := [1]
  lhsNonContracting := [0]
  rhsNonContracting := [0]
  lhsBatch := []
  rhsBatch := []
  wf := dot_S1x8192_S128x8192_S1x128_1_1_0_0_n_n_wf

abbrev win0_0 : Pipeline.Window sig grid0 :=
  Pipeline.Window.ofSpec (Memref.whole main_arg0) S1x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x8192.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S1x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S1x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_2) S128x8192.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1x8192 : Shape := ⟨2, ![1, 8192]⟩
abbrev S8192x8192 : Shape := ⟨2, ![8192, 8192]⟩
abbrev S8192 : Shape := ⟨1, ![8192]⟩
abbrev S_ : Shape := ⟨0, ![]⟩
abbrev S8192x1 : Shape := ⟨2, ![8192, 1]⟩

abbrev nBuf : Space → Nat
  | .hbm => 43
  | .vmem => 0
  | .smem => 0
  | _ => 0

abbrev bufTy : (tb : Table) → Fin (tcTables nBuf tb) → BufTy
  | .hbm, ⟨0, _⟩ => ⟨S1x8192, .f32⟩
  | .hbm, ⟨1, _⟩ => ⟨S8192x8192, .f32⟩
  | .hbm, ⟨2, _⟩ => ⟨S8192, .f32⟩
  | .hbm, ⟨3, _⟩ => ⟨S8192, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .i1⟩
  | .hbm, ⟨8, _⟩ => ⟨S8192x8192, .f32⟩
  | .hbm, ⟨9, _⟩ => ⟨S8192x8192, .f32⟩
  | .hbm, ⟨10, _⟩ => ⟨S1x8192, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S8192, .f32⟩
  | .hbm, ⟨16, _⟩ => ⟨S8192, .i1⟩
  | .hbm, ⟨17, _⟩ => ⟨S8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192, .f32⟩
  | .hbm, ⟨22, _⟩ => ⟨S8192x1, .f32⟩
  | .hbm, ⟨23, _⟩ => ⟨S1x8192, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | _, _ => ⟨S1x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  transposes_S8192x8192_S8192x8192_1_0 : S8192x8192.Transposes [1, 0] S8192x8192
  shapeCasts_S1x8192_S8192 : S1x8192.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  dot_S1x8192_S8192x8192_S1x8192_1_0_0_1_n_n_wf : DotDims.WF S1x8192 S8192x8192 S1x8192 [1] [0] [0] [1] [] []

variable [Facts₀]

def dot_S1x8192_S8192x8192_S1x8192_1_0_0_1_n_n : DotDims S1x8192 S8192x8192 S1x8192 where
  lhsContracting := [1]
  rhsContracting := [0]
  lhsNonContracting := [0]
  rhsNonContracting := [1]
  lhsBatch := []
  rhsBatch := []
  wf := dot_S1x8192_S8192x8192_S1x8192_1_0_0_1_n_n_wf

class Facts : Prop extends Facts₀ where

variable [Facts]
-- ==== Proof.Spec.lean ====
/-
  The three results as functions of the five argument arrays, index by index, on the extended reals.

  Neuron `o` receives the current  cur o = ∑ k, x k · [w o k > 50]  (a synapse conducts when its state is above 50),
  its membrane potential becomes  v o = mem o · c₀.₆ + cur o,  it fires when  v o ≥ thr o  (fire o ∈ {0, 1}),
  the potential is then reset softly,  v o · (1 − fire o) · c₀.₃,  and the eligibility trace of synapse (o, i) decays,
  gains the coincidence of the neuron's firing with the input spike, and is clamped:
  min 3 (max 0 (e o i · c₀.₇ + fire o · x i)).  The constants are the binary32 values the programs spell
  (the same words in both programs, so they are never evaluated).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The input spike row, 1 × 8192. -/
abbrev SRow : Shape := ⟨2, ![1, 8192]⟩
/-- A synapse matrix, 8192 × 8192 (output neuron, input). -/
abbrev SMat : Shape := ⟨2, ![8192, 8192]⟩
/-- A per-neuron vector, 8192. -/
abbrev SVec : Shape := ⟨1, ![8192]⟩

/-- A truth value (a one-bit word) read as the real number 0 or 1. -/
def bit (b : BitVec 1) : EReal := ((b.toNat : ℝ) : EReal)

/-- Widening a one-bit word to 32 bits without sign and reading it as a signed integer gives 0 or 1 again:
    the two conversions of a comparison's result to a float agree. -/
theorem toInt_setWidth_one : ∀ b : BitVec 1, (b.setWidth 32).toInt = (b.toNat : ℤ) := by decide

theorem sitofp_extui (b : BitVec 1) : (((b.setWidth 32).toInt : ℝ) : EReal) = bit b := by
  unfold bit; rw [toInt_setWidth_one]; norm_cast

variable (X : SRow.Idx → EReal) (W : SMat.Idx → EReal) (M Th : SVec.Idx → EReal) (E : SMat.Idx → EReal)

/-- Whether synapse (o, k) conducts: its state is above 50. -/
def gate (o k : Fin 8192) : EReal := bit (Ideal.cmp .ogt (W (ix2 o k)) (Ideal.ofBits .f32 0x42480000#32))

/-- The input current of neuron `o`: the input spikes summed over its conducting synapses. -/
def current (o : Fin 8192) : EReal := ∑ k : Fin 8192, X (ix2 (0 : Fin 1) k) * gate W o k

/-- The leaky membrane potential after integration. -/
def potential (o : Fin 8192) : EReal := M (ix1 o) * Ideal.ofBits .f32 0x3F19999A#32 + current X W o

/-- Whether neuron `o` fires: its potential has reached its threshold. -/
def fire (o : Fin 8192) : EReal := bit (Ideal.cmp .oge (potential X W M o) (Th (ix1 o)))

/-- The potential after the soft reset. -/
def reset (o : Fin 8192) : EReal :=
  potential X W M o * (Ideal.ofBits .f32 0x3F800000#32 - fire X W M Th o) * Ideal.ofBits .f32 0x3E99999A#32

/-- The eligibility trace of synapse (o, i) after decay, Hebbian gain and clamping to [0, 3]. -/
def trace (o i : Fin 8192) : EReal :=
  min (Ideal.ofBits .f32 0x40400000#32)
    (max (Ideal.ofBits .f32 0x00000000#32)
      (E (ix2 o i) * Ideal.ofBits .f32 0x3F333333#32 + fire X W M Th o * X (ix2 (0 : Fin 1) i)))

/-- The three result arrays. -/
def fireVec : SVec.Idx → EReal := fun i => fire X W M Th (i 0)
def resetVec : SVec.Idx → EReal := fun i => reset X W M Th (i 0)
def traceMat : SMat.Idx → EReal := fun i => trace X W M Th E (i 0) (i 1)

/-- The first two as the 1 × 8192 rows the kernel writes before they are reshaped. -/
def fireRow : SRow.Idx → EReal := fun j => fire X W M Th (j 1)
def resetRow : SRow.Idx → EReal := fun j => reset X W M Th (j 1)

end Cert.Spec

end
-- ==== Proof.RefSide.lean ====
/-
  The reference program computes the specification, index by index.

  Each operation of the reference is read at an index; the layout operations (transpose, reshape, broadcasts) only
  move indices, and the composed index maps are the plain coordinate indices. What remains is, in the same order of
  operations, the specification: the gate [w o k > 50], the current ∑ k, x k · gate o k, the potential
  mem o · c + cur o, the firing bit [v o ≥ thr o], the soft reset v o · (1 − fire o) · c, and the clamped trace
  min 3 (max 0 (e o i · c + fire o · x i)). No arithmetic identity is used.
-/
import proofs.«167468_j10840497455709_2_alg».proof.Proof.Spec
import proofs.«167468_j10840497455709_2_alg».proof.Proof.Gen.ReferenceIdeal.Read

noncomputable section

namespace Cert.RefSide

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Spec

variable (X : (⟨S1x8192, .f32⟩ : BufTy).Contents (Elt Ideal)) (W : (⟨S8192x8192, .f32⟩ : BufTy).Contents (Elt Ideal))
  (M Th : (⟨S8192, .f32⟩ : BufTy).Contents (Elt Ideal)) (E : (⟨S8192x8192, .f32⟩ : BufTy).Contents (Elt Ideal))

/-- The comparison of a synapse state with 50, converted to a number, is the gate. -/
theorem gate_eq (o k : Fin 8192) : val_main_v2 (F := Ideal) W (ix2 o k) = gate W o k := by
  rw [val_main_v2_apply, val_main_v1_apply, val_main_v0_apply, val_main_cst_apply]
  rfl

/-- The transposed gate matrix at (k, o) is the gate of synapse (o, k). -/
theorem gateT_eq (o k : Fin 8192) : val_main_v3 (F := Ideal) W (ix2 k o) = gate W o k := by
  have h : idx_main_v3 (ix2 k o) = ix2 o k := by
    funext a; match a with | ⟨0, _⟩ => rfl | ⟨1, _⟩ => rfl
  rw [val_main_v3_apply, h, gate_eq]

/-- The contraction of the spike row with the transposed gate matrix is the input current. -/
theorem current_row_eq (o : Fin 8192) : val_main_v4 (F := Ideal) X W (ix2 (0 : Fin 1) o) = current X W o := by
  rw [val_main_v4_apply]
  unfold current
  refine Finset.sum_congr rfl fun k _ => ?_
  have hl : lidx_main_v4 (ix2 (0 : Fin 1) o) k = ix2 (0 : Fin 1) k := by
    funext a; match a with | ⟨0, _⟩ => rfl | ⟨1, _⟩ => rfl
  have hr : ridx_main_v4 (ix2 (0 : Fin 1) o) k = ix2 k o := by
    funext a; match a with | ⟨0, _⟩ => rfl | ⟨1, _⟩ => rfl
  rw [hl, hr, gateT_eq]

/-- Reading the 1 × 8192 row as a vector: entry o of the vector is entry (0, o) of the row. -/
theorem idx_v5_eq (o : Fin 8192) : idx_main_v5 (ix1 o) = ix2 (0 : Fin 1) o :=
  funext fun a => Fin.ext (by
    match a with
    | ⟨0, _⟩ => rfl
    | ⟨1, _⟩ => exact Nat.mod_eq_of_lt o.isLt)

/-- The current of neuron o, read from the reshaped contraction. -/
theorem current_eq (o : Fin 8192) : val_main_v5 (F := Ideal) X W (ix1 o) = current X W o := by
  rw [val_main_v5_apply, idx_v5_eq, current_row_eq]

/-- The leaky potential plus the current. -/
theorem potential_eq (o : Fin 8192) : val_main_v8 (F := Ideal) X W M (ix1 o) = potential X W M o := by
  rw [val_main_v8_apply, val_main_v7_apply, val_main_v6_apply, val_main_cst_0_apply, current_eq]
  rfl

/-- The firing bit. -/
theorem fire_at (o : Fin 8192) : val_main_v10 (F := Ideal) X W M Th (ix1 o) = fire X W M Th o := by
  rw [val_main_v10_apply, val_main_v9_apply, potential_eq]
  rfl

/-- The soft reset. -/
theorem reset_at (o : Fin 8192) : val_main_v25 (F := Ideal) X W M Th (ix1 o) = reset X W M Th o := by
  rw [val_main_v25_apply, val_main_v23_apply, val_main_v22_apply, val_main_v21_apply, val_main_cst_4_apply,
    val_main_v24_apply, val_main_cst_5_apply, potential_eq, fire_at]
  rfl

/-- The clamped eligibility trace. -/
theorem trace_at (o i : Fin 8192) : val_main_v20 (F := Ideal) X W M Th E (ix2 o i) = trace X W M Th E o i := by
  have hf : idx_main_v14 (idx_main_v16 (ix2 o i)) = ix1 o := by
    funext a; match a with | ⟨0, _⟩ => rfl
  have hx : idx_main_v13 (idx_main_v15 (idx_main_v17 (ix2 o i))) = ix2 (0 : Fin 1) i :=
    funext fun a => Fin.ext (by
      match a with
      | ⟨0, _⟩ => rfl
      | ⟨1, _⟩ => exact Nat.mod_eq_of_lt i.isLt)
  rw [val_main_v20_apply, val_main_call0_v4_apply, val_main_call0_v3_apply, val_main_cst_3_apply,
    val_main_call0_v2_apply, val_main_call0_v1_apply, val_main_call0_v0_apply, val_main_cst_2_apply,
    val_main_v19_apply, val_main_v12_apply, val_main_v11_apply, val_main_cst_1_apply,
    val_main_v18_apply, val_main_v16_apply, val_main_v14_apply, hf, fire_at,
    val_main_v17_apply, val_main_v15_apply, val_main_v13_apply, hx]
  rfl

theorem fire_eq : val_main_v10 (F := Ideal) X W M Th = fireVec X W M Th := by
  funext i
  obtain ⟨o, rfl⟩ : ∃ o, i = ix1 o := ⟨_, eq_ix1 i⟩
  exact fire_at X W M Th o

theorem reset_eq : val_main_v25 (F := Ideal) X W M Th = resetVec X W M Th := by
  funext i
  obtain ⟨o, rfl⟩ : ∃ o, i = ix1 o := ⟨_, eq_ix1 i⟩
  exact reset_at X W M Th o

theorem trace_eq : val_main_v20 (F := Ideal) X W M Th E = traceMat X W M Th E := by
  funext j
  obtain ⟨o, i, rfl⟩ : ∃ o i, j = ix2 o i := ⟨_, _, eq_ix2 j⟩
  exact trace_at X W M Th E o i

end Cert.RefSide

end
-- ==== Proof.KBody.lean ====
/-
  What one run of the kernel body leaves in its three output blocks, as closed terms of the five input blocks.

  The fired row and the reset row are each written by one store of the whole 1 × 128 block, so the block holds that
  store's value. The 128 × 8192 trace block is written in four column stretches of 2048, one per trip of the body's
  loop: stretch k holds the clamped update computed from columns 2048·k … 2048·k + 2047 of the old trace block and
  of the input spike row, so the entry at column j comes from stretch j / 2048, at position j mod 2048 inside it.
-/
import proofs.«167468_j10840497455709_2_alg».proof.Proof.Gen.KernelIdeal.Frame
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]

/-- Offsets (0, 0), however spelt. -/
theorem zeros2 : (![0, 0] : Fin 2 → Nat) = fun _ => 0 :=
  funext fun a => by match a with | ⟨0, _⟩ => rfl | ⟨1, _⟩ => rfl

/-- The fired row's block holds the one value stored into it. -/
theorem firedBlock_eq (c : Dev nD) (i : grid0.Coords) (arg1 : Memref sig .tc .vmem S1x8192 .f32) (harg1 : arg1.IsWhole) (arg2 : Memref sig .tc .vmem S128x8192 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x8192 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x8192 .f32) (harg8 : arg8.IsWhole) (x0 : Vec F S1x8192 .f32) (x1 : Vec F S128x8192 .f32) (x2 : Vec F S1x128 .f32) (x3 : Vec F S1x128 .f32) (x4 : Vec F S128x8192 .f32) :
    out0_A_5 c i arg1 harg1 arg2 harg2 arg3 harg3 arg4 harg4 arg5 harg5 arg6 harg6 arg7 harg7 arg8 harg8 x0 x1 x2 x3 x4 = k0_pay2 x0 x1 x2 x3 := by
  unfold out0_A_5
  rw [View.read_writes_eq_canon _ _ _ (cover0_A_5 c i arg1 harg1 arg2 harg2 arg3 harg3 arg4 harg4 arg5 harg5 arg6 harg6 arg7 harg7 arg8 harg8 x0 x1 x2 x3 x4)]
  unfold kernelRun0_A
  dsimp only
  sl_unfold_words
  rw [View.canon_unit_zero zeros2]
  simp only [View.readAt_eq_ld, harg1.read_unread, harg2.read_unread, harg3.read_unread, harg4.read_unread,
    View.ld_unit_zero (S := S1x8192) zeros2, View.ld_unit_zero (S := S128x8192) zeros2,
    View.ld_unit_zero (S := S1x128) zeros2]

/-- The reset row's block holds the one value stored into it. -/
theorem resetBlock_eq (c : Dev nD) (i : grid0.Coords) (arg1 : Memref sig .tc .vmem S1x8192 .f32) (harg1 : arg1.IsWhole) (arg2 : Memref sig .tc .vmem S128x8192 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x8192 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x8192 .f32) (harg8 : arg8.IsWhole) (x0 : Vec F S1x8192 .f32) (x1 : Vec F S128x8192 .f32) (x2 : Vec F S1x128 .f32) (x3 : Vec F S1x128 .f32) (x4 : Vec F S128x8192 .f32) :
    out0_A_6 c i arg1 harg1 arg2 harg2 arg3 harg3 arg4 harg4 arg5 harg5 arg6 harg6 arg7 harg7 arg8 harg8 x0 x1 x2 x3 x4 = k0_pay3 x0 x1 x2 x3 := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4)]
  unfold kernelRun0_A
  dsimp only
  sl_unfold_words
  rw [View.canon_unit_zero zeros2]
  simp only [View.readAt_eq_ld, harg1.read_unread, harg2.read_unread, harg3.read_unread, harg4.read_unread,
    View.ld_unit_zero (S := S1x8192) zeros2, View.ld_unit_zero (S := S128x8192) zeros2,
    View.ld_unit_zero (S := S1x128) zeros2]

/-! ## The trace block: four column stretches -/

/-- The loop makes four trips. -/
theorem trips_eq : k0_t1_loop.trips = 4 := by decide +kernel

/-- The rectangle of column stretch `k` inside the 128 × 8192 block, and inside the 1 × 8192 spike row. -/
abbrev stretch (k : Fin k0_t1_loop.trips) : Rect S128x8192 := Rect.unit (k0_off1 k) S128x2048.size (k0_off1_inb k)
abbrev stretchRow (k : Fin k0_t1_loop.trips) : Rect S1x8192 := Rect.unit (k0_off2 k) S1x2048.size (k0_off2_inb k)

/-- What trip `k` stores: the clamped update over its stretch of the old trace block and of the spike row. -/
def chunk (x0 : Vec F S1x8192 .f32) (x1 : Vec F S128x8192 .f32) (x2 x3 : Vec F S1x128 .f32) (x4 : Vec F S128x8192 .f32)
    (k : Fin k0_t1_loop.trips) : FVec F S128x2048 .f32 :=
  k0_pay4 x0 x1 x2 x3 (View.ld x4 (stretch k)) (View.ld x0 (stretchRow k))

/-- The stretch a column lies in, -/
def stretchOf (y : S128x8192.Idx) : Fin k0_t1_loop.trips :=
  ⟨(y 1).val / 2048, by rw [trips_eq]; have h : (y 1).val < 8192 := (y 1).isLt; omega⟩
/-- and the entry's position inside that stretch. -/
def within (y : S128x8192.Idx) : S128x2048.Idx :=
  ix2 (⟨(y 0).val, (y 0).isLt⟩ : Fin 128) (⟨(y 1).val % 2048, Nat.mod_lt _ (by decide)⟩ : Fin 2048)

/-- The whole trace block, entry by entry: each entry read off the stretch it lies in. -/
def traceBlock (x0 : Vec F S1x8192 .f32) (x1 : Vec F S128x8192 .f32) (x2 x3 : Vec F S1x128 .f32) (x4 : Vec F S128x8192 .f32) :
    Vec F S128x8192 .f32 :=
  fun y => chunk x0 x1 x2 x3 x4 (stretchOf y) (within y)

/-- Position `x` of stretch `k` sits in the block at row `x 0`, column `2048·k + x 1`. -/
theorem stretch_emb_row (k : Fin k0_t1_loop.trips) (x : S128x2048.Idx) : ((stretch k).emb x 0 : Nat) = (x 0).val := by
  rw [Rect.emb_apply]; show (k0_off1 k) 0 + 1 * (x 0).val = _; rw [k0_off1_eq k]; show 0 + 1 * (x 0).val = _; omega
theorem stretch_emb_col (k : Fin k0_t1_loop.trips) (x : S128x2048.Idx) : ((stretch k).emb x 1 : Nat) = 2048 * k.val + (x 1).val := by
  rw [Rect.emb_apply]; show (k0_off1 k) 1 + 1 * (x 1).val = _; rw [k0_off1_eq k]; show 2048 * k.val + 1 * (x 1).val = _; omega

theorem stretchOf_emb (k : Fin k0_t1_loop.trips) (x : S128x2048.Idx) : stretchOf ((stretch k).emb x) = k := by
  apply Fin.ext
  show ((stretch k).emb x 1 : Nat) / 2048 = k.val
  rw [stretch_emb_col]
  have h : (x 1).val < 2048 := (x 1).isLt
  omega

theorem within_emb (k : Fin k0_t1_loop.trips) (x : S128x2048.Idx) : within ((stretch k).emb x) = x := by
  funext a; apply Fin.ext
  match a with
  | ⟨0, _⟩ => show ((stretch k).emb x 0 : Nat) = (x 0).val; exact stretch_emb_row k x
  | ⟨1, _⟩ =>
    show ((stretch k).emb x 1 : Nat) % 2048 = (x 1).val
    rw [stretch_emb_col]
    have h : (x 1).val < 2048 := (x 1).isLt
    omega

/-- So the block, read at a position of stretch `k`, is what trip `k` stored there. -/
theorem traceBlock_emb (x0 : Vec F S1x8192 .f32) (x1 : Vec F S128x8192 .f32) (x2 x3 : Vec F S1x128 .f32) (x4 : Vec F S128x8192 .f32)
    (k : Fin k0_t1_loop.trips) (x : S128x2048.Idx) :
    traceBlock x0 x1 x2 x3 x4 ((stretch k).emb x) = chunk x0 x1 x2 x3 x4 k x := by
  unfold traceBlock
  rw [stretchOf_emb, within_emb]

/-- One trip writes one piece: its stretch, at the clamped update of what it loaded. -/
theorem trip_piece (𝒱 : Variants) (c : Dev nD) (bd : Option 𝒱.V) (i : grid0.Coords) (arg1 : Memref sig .tc .vmem S1x8192 .f32) (harg1 : arg1.IsWhole) (arg2 : Memref sig .tc .vmem S128x8192 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x8192 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x8192 .f32) (harg8 : arg8.IsWhole) (v0 : Vec F S1x8192 .f32) (v2 : Vec F S128x8192 .f32) (v9 : Vec F S1x128 .f32) (v14 : Vec F S1x128 .f32) (X_arg1 : BufTy.Contents (Elt F) arg1.view.ty) (X_arg5 : BufTy.Contents (Elt F) arg5.view.ty) (k : Fin k0_t1_loop.trips) :
    tripL_k0_t1 𝒱 c bd i arg1 harg1 arg2 harg2 arg3 harg3 arg4 harg4 arg5 harg5 arg6 harg6 arg7 harg7 arg8 harg8 v0 v2 v9 v14 X_arg1 X_arg5 k
      = [⟨stretch k, k0_pay4 v0 v2 v9 v14 (View.readAt (Elt F) arg5.view (stretch k).toLoadRect X_arg5)
          (View.readAt (Elt F) arg1.view (stretchRow k).toLoadRect X_arg1)⟩] := by
  unfold tripL_k0_t1 trip_k0_t1
  rfl

/-- Every piece written by the trips before `n` is some trip's piece. -/
theorem mem_trips (𝒱 : Variants) (c : Dev nD) (bd : Option 𝒱.V) (i : grid0.Coords) (arg1 : Memref sig .tc .vmem S1x8192 .f32) (harg1 : arg1.IsWhole) (arg2 : Memref sig .tc .vmem S128x8192 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x8192 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x8192 .f32) (harg8 : arg8.IsWhole) (v0 : Vec F S1x8192 .f32) (v2 : Vec F S128x8192 .f32) (v9 : Vec F S1x128 .f32) (v14 : Vec F S1x128 .f32) (X_arg1 : BufTy.Contents (Elt F) arg1.view.ty) (X_arg5 : BufTy.Contents (Elt F) arg5.view.ty) (n : ℕ) (hn : n ≤ k0_t1_loop.trips)
    (p : View.Piece (Elt F) S128x8192 .f32)
    (hp : p ∈ pb_k0_t1 𝒱 c bd i arg1 harg1 arg2 harg2 arg3 harg3 arg4 harg4 arg5 harg5 arg6 harg6 arg7 harg7 arg8 harg8 v0 v2 v9 v14 X_arg1 X_arg5 n) :
    ∃ k : Fin k0_t1_loop.trips, p ∈ tripL_k0_t1 𝒱 c bd i arg1 harg1 arg2 harg2 arg3 harg3 arg4 harg4 arg5 harg5 arg6 harg6 arg7 harg7 arg8 harg8 v0 v2 v9 v14 X_arg1 X_arg5 k := by
  induction n with
  | zero => rw [pb_k0_t1.eq_1] at hp; exact absurd hp List.not_mem_nil
  | succ n ih =>
    have e : pb_k0_t1 𝒱 c bd i arg1 harg1 arg2 harg2 arg3 harg3 arg4 harg4 arg5 harg5 arg6 harg6 arg7 harg7 arg8 harg8 v0 v2 v9 v14 X_arg1 X_arg5 (n + 1)
        = tripL_k0_t1 𝒱 c bd i arg1 harg1 arg2 harg2 arg3 harg3 arg4 harg4 arg5 harg5 arg6 harg6 arg7 harg7 arg8 harg8 v0 v2 v9 v14 X_arg1 X_arg5 ⟨n, hn⟩ ++ pb_k0_t1 𝒱 c bd i arg1 harg1 arg2 harg2 arg3 harg3 arg4 harg4 arg5 harg5 arg6 harg6 arg7 harg7 arg8 harg8 v0 v2 v9 v14 X_arg1 X_arg5 n :=
      pb_k0_t1_succ 𝒱 c bd i arg1 harg1 arg2 harg2 arg3 harg3 arg4 harg4 arg5 harg5 arg6 harg6 arg7 harg7 arg8 harg8 v0 v2 v9 v14 X_arg1 X_arg5 ⟨n, hn⟩
    rw [e, List.mem_append] at hp
    rcases hp with h | h
    · exact ⟨⟨n, hn⟩, h⟩
    · exact ih (Nat.le_of_succ_le hn) h

/-- The trace block after the run: the four stretches, each at its trip's value. -/
theorem traceBlock_eq (c : Dev nD) (i : grid0.Coords) (arg1 : Memref sig .tc .vmem S1x8192 .f32) (harg1 : arg1.IsWhole) (arg2 : Memref sig .tc .vmem S128x8192 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x8192 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x8192 .f32) (harg8 : arg8.IsWhole) (x0 : Vec F S1x8192 .f32) (x1 : Vec F S128x8192 .f32) (x2 : Vec F S1x128 .f32) (x3 : Vec F S1x128 .f32) (x4 : Vec F S128x8192 .f32) :
    out0_A_7 c i arg1 harg1 arg2 harg2 arg3 harg3 arg4 harg4 arg5 harg5 arg6 harg6 arg7 harg7 arg8 harg8 x0 x1 x2 x3 x4 = traceBlock x0 x1 x2 x3 x4 := by
  unfold out0_A_7
  rw [View.read_writes_eq_canon _ _ _ (cover0_A_7 c i arg1 harg1 arg2 harg2 arg3 harg3 arg4 harg4 arg5 harg5 arg6 harg6 arg7 harg7 arg8 harg8 x0 x1 x2 x3 x4)]
  funext y
  refine View.canon_apply_of_pieces (traceBlock x0 x1 x2 x3 x4) _ ?_ y (cover0_A_7 c i arg1 harg1 arg2 harg2 arg3 harg3 arg4 harg4 arg5 harg5 arg6 harg6 arg7 harg7 arg8 harg8 x0 x1 x2 x3 x4 y)
  unfold kernelRun0_A
  dsimp only
  intro p hp x
  obtain ⟨k, hk⟩ := mem_trips _ _ _ _ _ _ _ _ _ _ _ _ _ _ _ _ _ _ _ _ _ _ _ _ _ _ _ (le_refl _) p hp
  rw [trip_piece, List.mem_singleton] at hk
  subst hk
  show k0_pay4 _ _ _ _ _ _ x = traceBlock x0 x1 x2 x3 x4 ((stretch k).emb x)
  rw [traceBlock_emb]
  simp only [View.readAt_eq_ld, harg1.read_unread, harg2.read_unread, harg3.read_unread, harg4.read_unread,
    harg5.read_unread, View.ld_unit_zero (S := S1x8192) zeros2, View.ld_unit_zero (S := S128x8192) zeros2,
    View.ld_unit_zero (S := S1x128) zeros2]
  rfl

end Cert.KernelIdeal.Body

end
-- ==== Proof.KPayload.lean ====
/-
  The body's arithmetic read at one entry, on the extended reals.

  For the block of 128 neurons a grid point handles (row `r` of the block), with the spike row `x`, the block's
  synapse states `w`, potentials `mem`, thresholds `thr`:
    potential r = mem r · c₀.₆ + ∑ k, x k · [w r k > 50]      (the matrix product into a zero accumulator is this sum),
    fire r      = [potential r ≥ thr r],
    reset r     = potential r · (1 − fire r) · c₀.₃,
  and for a stretch `e` of the old trace block with the matching stretch `xs` of the spike row
    update r j  = min 3 (max 0 (e r j · c₀.₇ + fire r · xs j)).
  The fired row is turned into a column and spread over the stretch's columns, the spike stretch over its rows:
  both only move indices.
-/
import proofs.«167468_j10840497455709_2_alg».proof.Proof.Gen.KernelIdeal.Skeleton
import proofs.«167468_j10840497455709_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen
open Idealize.ShloMosaic Idealize.ShloMosaic.ValueIdx Cert.Spec

/-! ## Two layout readings -/

/-- A column `[a, 1]` spread over `b` columns reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The matrix product of the spike row with the gate block -/

local notation "DD" => dot_S1x8192_S128x8192_S1x128_1_1_0_0_n_n

theorem lhs_row (i : S1x128.Idx) (q : DotDims.contr DD |>.Idx) : (DotDims.lhsIdx DD i q 0).val = (i 0).val := by
  unfold DotDims.lhsIdx
  rw [dif_neg (show ¬(0 : Fin S1x8192.rank) ∈ DotDims.lhsBatch DD by decide),
    dif_pos (show (0 : Fin S1x8192.rank) ∈ DotDims.lhsNonContracting DD by decide)]
  rfl
theorem lhs_col (i : S1x128.Idx) (q : DotDims.contr DD |>.Idx) : (DotDims.lhsIdx DD i q 1).val = (q ⟨0, by decide⟩).val :=
  DotDims.lhsIdx_val_of_single DD rfl i q
theorem rhs_row (i : S1x128.Idx) (q : DotDims.contr DD |>.Idx) : (DotDims.rhsIdx DD i q 0).val = (i 1).val := by
  unfold DotDims.rhsIdx
  rw [dif_neg (show ¬(0 : Fin S128x8192.rank) ∈ DotDims.rhsBatch DD by decide),
    dif_pos (show (0 : Fin S128x8192.rank) ∈ DotDims.rhsNonContracting DD by decide)]
  rfl
theorem rhs_col (i : S1x128.Idx) (q : DotDims.contr DD |>.Idx) : (DotDims.rhsIdx DD i q 1).val = (q ⟨0, by decide⟩).val :=
  DotDims.rhsIdx_val_of_single DD rfl i q

/-- Entry `(0, r)` of the product of a `1 × 8192` row with the transpose of a `128 × 8192` block, accumulated
    into zero: the sum over `k` of the row's entry `k` times the block's entry `(r, k)`. -/
theorem matmul_row {φ₁ φ₂ : FTy} (l : FVec Ideal S1x8192 φ₁) (g : FVec Ideal S128x8192 φ₂) (r : Fin 128) :
    matmul DD none l g (constant S1x128 .f32 0x00000000#32) (ix2 (0 : Fin 1) r)
      = ∑ k : Fin 8192, l (ix2 (0 : Fin 1) k) * g (ix2 r k) := by
  simp only [matmul]
  rw [Ideal.matmul_constant_zero_apply, ← Equiv.sum_comp (contrEquiv1 DD 8192 rfl rfl).symm]
  refine Finset.sum_congr rfl fun k _ => ?_
  have hk := contrEquiv1_symm_val DD 8192 rfl rfl k
  have el : DotDims.lhsIdx DD (ix2 (0 : Fin 1) r) ((contrEquiv1 DD 8192 rfl rfl).symm k) = ix2 (0 : Fin 1) k :=
    funext fun a => Fin.ext (by
      match a with
      | ⟨0, _⟩ => exact lhs_row _ _
      | ⟨1, _⟩ => exact (lhs_col _ _).trans hk)
  have er : DotDims.rhsIdx DD (ix2 (0 : Fin 1) r) ((contrEquiv1 DD 8192 rfl rfl).symm k) = ix2 r k :=
    funext fun a => Fin.ext (by
      match a with
      | ⟨0, _⟩ => exact rhs_row _ _
      | ⟨1, _⟩ => exact (rhs_col _ _).trans hk)
  rw [el, er]

/-! ## The block's quantities -/

variable (x0 : Vec Ideal S1x8192 .f32) (x1 : Vec Ideal S128x8192 .f32) (x2 x3 : Vec Ideal S1x128 .f32)

/-- Whether synapse `(r, k)` of the block conducts. -/
def bGate (r : Fin 128) (k : Fin 8192) : EReal :=
  bit (Ideal.cmp .ogt (x1 (ix2 r k)) (Ideal.ofBits .f32 0x42480000#32))
def bCurrent (r : Fin 128) : EReal := ∑ k : Fin 8192, x0 (ix2 (0 : Fin 1) k) * bGate x1 r k
def bPotential (r : Fin 128) : EReal := x2 (ix2 (0 : Fin 1) r) * Ideal.ofBits .f32 0x3F19999A#32 + bCurrent x0 x1 r
def bFire (r : Fin 128) : EReal := bit (Ideal.cmp .oge (bPotential x0 x1 x2 r) (x3 (ix2 (0 : Fin 1) r)))
def bReset (r : Fin 128) : EReal :=
  bPotential x0 x1 x2 r * (Ideal.ofBits .f32 0x3F800000#32 - bFire x0 x1 x2 x3 r) * Ideal.ofBits .f32 0x3E99999A#32
def bUpdate (e : Vec Ideal S128x2048 .f32) (xs : Vec Ideal S1x2048 .f32) (r : Fin 128) (j : Fin 2048) : EReal :=
  min (Ideal.ofBits .f32 0x40400000#32)
    (max (Ideal.ofBits .f32 0x00000000#32)
      (e (ix2 r j) * Ideal.ofBits .f32 0x3F333333#32 + bFire x0 x1 x2 x3 r * xs (ix2 (0 : Fin 1) j)))

/-- A comparison's bit, widened to 32 bits and converted as a signed integer, is the bit as a number. -/
theorem sitofp_extui_bit (b : BitVec 1) : (FloatOps.sitofp (F := Ideal) .f32 (b.setWidth 32) : EReal) = bit b :=
  sitofp_extui b

theorem potential_at (r : Fin 128) : k0_pay1 (F := Ideal) x0 x1 x2 (ix2 (0 : Fin 1) r) = bPotential x0 x1 x2 r := by
  unfold k0_pay1 bPotential bCurrent bGate
  simp only [addf_apply, mulf_apply, shapeCast_self, broadcast_apply, matmul_row, truncf_apply, sitofp_apply,
    extui_apply, cmpf_apply, sitofp_extui_bit]
  rfl

theorem fire_at (r : Fin 128) : k0_pay2 (F := Ideal) x0 x1 x2 x3 (ix2 (0 : Fin 1) r) = bFire x0 x1 x2 x3 r := by
  unfold k0_pay2 bFire
  simp only [sitofp_apply, extui_apply, cmpf_apply, shapeCast_self, potential_at, sitofp_extui_bit]
  rfl

theorem reset_at (r : Fin 128) : k0_pay3 (F := Ideal) x0 x1 x2 x3 (ix2 (0 : Fin 1) r) = bReset x0 x1 x2 x3 r := by
  unfold k0_pay3 bReset
  simp only [mulf_apply, subf_apply, broadcast_apply, potential_at, fire_at]
  rfl

/-- The fired row turned into a column: entry `(r, 0)` of the column is entry `(0, r)` of the row. -/
theorem column_at (v : FVec Ideal S1x128 .f32) (r : Fin 128) :
    transpose S128x1 [1, 0] v transposes_S1x128_p1_0_S128x1 (ix2 r (0 : Fin 1)) = v (ix2 (0 : Fin 1) r) :=
  transpose_apply _ v transposes_S1x128_p1_0_S128x1 _ _ fun c => match c with | ⟨0, _⟩ => rfl | ⟨1, _⟩ => rfl

theorem update_at (e : Vec Ideal S128x2048 .f32) (xs : Vec Ideal S1x2048 .f32) (r : Fin 128) (j : Fin 2048) :
    k0_pay4 (F := Ideal) x0 x1 x2 x3 e xs (ix2 r j) = bUpdate x0 x1 x2 x3 e xs r j := by
  unfold k0_pay4 bUpdate
  simp only [minimumf_apply, maximumf_apply, addf_apply, mulf_apply, broadcast_apply, broadcastTo_a1_ab_apply,
    broadcastTo_1b_ab_apply]
  have hT : transpose S128x1 [1, 0] (k0_pay2 (F := Ideal) x0 x1 x2 x3) transposes_S1x128_p1_0_S128x1 (ix2 r (0 : Fin 1))
      = bFire x0 x1 x2 x3 r := (column_at _ r).trans (fire_at x0 x1 x2 x3 r)
  rw [hT]
  rfl

end Cert.KernelIdeal.Payload

end
-- ==== Proof.KBlockSpec.lean ====
/-
  The block's quantities are the specification's, at the block's neurons.

  Grid point `t` handles the 128 neurons  128·t … 128·t + 127:  row `r` of its blocks is neuron `128·t + r`. When the
  four input blocks hold the corresponding rows of the argument arrays (and the whole spike row), the block's gate,
  current, potential, firing bit and reset value at row `r` are the specification's at that neuron; and the clamped
  update over column stretch `k` (columns `2048·k … 2048·k + 2047`) is the specification's trace at those inputs.
-/
import proofs.«167468_j10840497455709_2_alg».proof.Proof.KPayload

noncomputable section

namespace Cert.KernelIdeal.BlockSpec

open Cert.KernelIdeal
open Idealize.ShloMosaic Idealize.ShloMosaic.ValueIdx Cert.Spec Cert.KernelIdeal.Payload

/-- Row `r` of grid point `t`'s blocks is neuron `128·t + r`. -/
def neuron (t : Fin 64) (r : Fin 128) : Fin 8192 :=
  ⟨128 * t.val + r.val, by have := t.isLt; have := r.isLt; omega⟩
/-- Column `j` of stretch `k` is input `2048·k + j`. -/
def input (k : ℕ) (hk : k < 4) (j : Fin 2048) : Fin 8192 := ⟨2048 * k + j.val, by have := j.isLt; omega⟩

variable (X : SRow.Idx → EReal) (W : SMat.Idx → EReal) (M Th : SVec.Idx → EReal) (E : SMat.Idx → EReal)
variable (x0 : Vec Ideal S1x8192 .f32) (x1 : Vec Ideal S128x8192 .f32) (x2 x3 : Vec Ideal S1x128 .f32) (t : Fin 64)

theorem gate_eq (h1 : ∀ (r : Fin 128) (k : Fin 8192), x1 (ix2 r k) = W (ix2 (neuron t r) k)) (r : Fin 128) (k : Fin 8192) :
    bGate x1 r k = gate W (neuron t r) k := by
  unfold bGate gate; rw [h1]

theorem current_eq (h0 : ∀ k : Fin 8192, x0 (ix2 (0 : Fin 1) k) = X (ix2 (0 : Fin 1) k))
    (h1 : ∀ (r : Fin 128) (k : Fin 8192), x1 (ix2 r k) = W (ix2 (neuron t r) k)) (r : Fin 128) :
    bCurrent x0 x1 r = current X W (neuron t r) := by
  unfold bCurrent current
  exact Finset.sum_congr rfl fun k _ => by rw [h0, gate_eq W x1 t h1]

theorem potential_eq (h0 : ∀ k : Fin 8192, x0 (ix2 (0 : Fin 1) k) = X (ix2 (0 : Fin 1) k))
    (h1 : ∀ (r : Fin 128) (k : Fin 8192), x1 (ix2 r k) = W (ix2 (neuron t r) k))
    (h2 : ∀ r : Fin 128, x2 (ix2 (0 : Fin 1) r) = M (ix1 (neuron t r))) (r : Fin 128) :
    bPotential x0 x1 x2 r = potential X W M (neuron t r) := by
  unfold bPotential potential
  rw [h2, current_eq X W x0 x1 t h0 h1]

theorem fire_eq (h0 : ∀ k : Fin 8192, x0 (ix2 (0 : Fin 1) k) = X (ix2 (0 : Fin 1) k))
    (h1 : ∀ (r : Fin 128) (k : Fin 8192), x1 (ix2 r k) = W (ix2 (neuron t r) k))
    (h2 : ∀ r : Fin 128, x2 (ix2 (0 : Fin 1) r) = M (ix1 (neuron t r)))
    (h3 : ∀ r : Fin 128, x3 (ix2 (0 : Fin 1) r) = Th (ix1 (neuron t r))) (r : Fin 128) :
    bFire x0 x1 x2 x3 r = fire X W M Th (neuron t r) := by
  unfold bFire fire
  rw [h3, potential_eq X W M x0 x1 x2 t h0 h1 h2]

theorem reset_eq (h0 : ∀ k : Fin 8192, x0 (ix2 (0 : Fin 1) k) = X (ix2 (0 : Fin 1) k))
    (h1 : ∀ (r : Fin 128) (k : Fin 8192), x1 (ix2 r k) = W (ix2 (neuron t r) k))
    (h2 : ∀ r : Fin 128, x2 (ix2 (0 : Fin 1) r) = M (ix1 (neuron t r)))
    (h3 : ∀ r : Fin 128, x3 (ix2 (0 : Fin 1) r) = Th (ix1 (neuron t r))) (r : Fin 128) :
    bReset x0 x1 x2 x3 r = reset X W M Th (neuron t r) := by
  unfold bReset reset
  rw [fire_eq X W M Th x0 x1 x2 x3 t h0 h1 h2 h3, potential_eq X W M x0 x1 x2 t h0 h1 h2]

theorem update_eq (h0 : ∀ k : Fin 8192, x0 (ix2 (0 : Fin 1) k) = X (ix2 (0 : Fin 1) k))
    (h1 : ∀ (r : Fin 128) (k : Fin 8192), x1 (ix2 r k) = W (ix2 (neuron t r) k))
    (h2 : ∀ r : Fin 128, x2 (ix2 (0 : Fin 1) r) = M (ix1 (neuron t r)))
    (h3 : ∀ r : Fin 128, x3 (ix2 (0 : Fin 1) r) = Th (ix1 (neuron t r)))
    (e : Vec Ideal S128x2048 .f32) (xs : Vec Ideal S1x2048 .f32) (k : ℕ) (hk : k < 4)
    (he : ∀ (r : Fin 128) (j : Fin 2048), e (ix2 r j) = E (ix2 (neuron t r) (input k hk j)))
    (hx : ∀ j : Fin 2048, xs (ix2 (0 : Fin 1) j) = X (ix2 (0 : Fin 1) (input k hk j)))
    (r : Fin 128) (j : Fin 2048) :
    bUpdate x0 x1 x2 x3 e xs r j = trace X W M Th E (neuron t r) (input k hk j) := by
  unfold bUpdate trace
  rw [he, hx, fire_eq X W M Th x0 x1 x2 x3 t h0 h1 h2 h3]

end Cert.KernelIdeal.BlockSpec

end
-- ==== Proof.KArrays.lean ====
/-
  The kernel's three output arrays after the run, as the specification's functions of the argument arrays.

  Grid point `t` stages rows `128·t … 128·t + 127` of the synapse-state and trace matrices, entries
  `128·t … 128·t + 127` of the potential and threshold rows (the two vectors reshaped to 1 × 8192 before the call),
  and the whole spike row; it writes back the same rows of the new trace matrix and the same entries of the fired
  and reset rows. What it writes is the specification at those neurons, the blocks of the 64 points tile each
  output array, so each array ends holding the specification everywhere.
-/
import proofs.«167468_j10840497455709_2_alg».proof.Proof.KBody
import proofs.«167468_j10840497455709_2_alg».proof.Proof.KBlockSpec
import Idealize.ShloMosaic.Lib.StableHlo.Run
import Idealize.ShloMosaic.Lib.ValueLayout

set_option maxRecDepth 16384

noncomputable section

namespace Cert.KernelIdeal.Arrays

open Cert.KernelIdeal Cert.KernelIdeal.Gen
open Idealize.ShloMosaic Idealize.ShloMosaic.TcCoe Idealize.ShloMosaic.ValueIdx Idealize.ShloMosaic.StableHlo
open Idealize.SL Idealize.SL.Sem
open Cert.Spec Cert.KernelIdeal.Body Cert.KernelIdeal.Payload Cert.KernelIdeal.BlockSpec

variable (m : (ℓ : Loc nD τ sig) → Buf (Elt Ideal) ℓ)

/-! ## The argument arrays as launched, on core `c` -/

abbrev argX (c : Dev nD) : SRow.Idx → EReal := m ((c : Thread nD τ).loc main_arg0)
abbrev argW (c : Dev nD) : SMat.Idx → EReal := m ((c : Thread nD τ).loc main_arg1)
abbrev argM (c : Dev nD) : SVec.Idx → EReal := m ((c : Thread nD τ).loc main_arg2)
abbrev argTh (c : Dev nD) : SVec.Idx → EReal := m ((c : Thread nD τ).loc main_arg3)
abbrev argE (c : Dev nD) : SMat.Idx → EReal := m ((c : Thread nD τ).loc main_arg4)

/-! ## Where each window's block sits -/

/-- The grid has 64 points. -/
def pt (t : Fin cfg0.N) : Fin 64 := ⟨t.val, Nat.lt_of_lt_of_eq t.isLt N_0⟩

/-- The printed index maps, decided once over the grid: the row windows (matrices) move down with the point, the
    column windows (the 1 × 8192 rows) move right with it, the spike row stays. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = t.val ∧ win0_4.index t (1 : Fin 2) = 0
    ∧ win0_5.index t (0 : Fin 2) = 0 ∧ win0_5.index t (1 : Fin 2) = t.val
    ∧ win0_6.index t (0 : Fin 2) = 0 ∧ win0_6.index t (1 : Fin 2) = t.val
    ∧ win0_7.index t (0 : Fin 2) = t.val ∧ win0_7.index t (1 : Fin 2) = 0 :=
  (by decide +kernel : ∀ t : Fin grid0.N, _)

/-! ## The two rows the host reshapes before the call -/

theorem potentialRow_eq (c : Dev nD) :
    (V m c main_v0 : S1x8192.Idx → EReal) = shapeCast S1x8192 (argM m c) shapeCasts_S8192_S1x8192 := by
  show StableHlo.after hostOps0 (fun b => m (c, b)) (Proc.devRef .tc main_v0) = _
  after_results
  rfl

theorem thresholdRow_eq (c : Dev nD) :
    (V m c main_v1 : S1x8192.Idx → EReal) = shapeCast S1x8192 (argTh m c) shapeCasts_S8192_S1x8192 := by
  show StableHlo.after hostOps0 (fun b => m (c, b)) (Proc.devRef .tc main_v1) = _
  after_results
  rfl

/-! ## The input blocks at coordinates -/

theorem spikeBlock_at (c : Dev nD) (t : Fin cfg0.N) (k : Fin 8192) :
    iblk m c 0 t (ix2 (0 : Fin 1) k) = argX m c (ix2 (0 : Fin 1) k) := by
  show V m c main_arg0 (((cfg0.win 0).blk t).view.emb (ix2 (0 : Fin 1) k)) = _
  rw [V_main_arg0]
  obtain ⟨e0, e1, -⟩ := idx_facts t
  have h : ((cfg0.win 0).blk t).view.emb (ix2 (0 : Fin 1) k) = ix2 (0 : Fin 1) k := by
    funext a; apply Fin.ext
    match a with
    | ⟨0, _⟩ => show win0_0.index t (0 : Fin 2) * 1 + 1 * 0 = 0; omega
    | ⟨1, _⟩ => show win0_0.index t (1 : Fin 2) * 8192 + 1 * k.val = k.val; omega
  rw [h]

theorem stateBlock_at (c : Dev nD) (t : Fin cfg0.N) (r : Fin 128) (k : Fin 8192) :
    iblk m c 1 t (ix2 r k) = argW m c (ix2 (neuron (pt t) r) k) := by
  show V m c main_arg1 (((cfg0.win 1).blk t).view.emb (ix2 r k)) = _
  rw [V_main_arg1]
  obtain ⟨-, -, e0, e1, -⟩ := idx_facts t
  have h : ((cfg0.win 1).blk t).view.emb (ix2 r k) = ix2 (neuron (pt t) r) k := by
    funext a; apply Fin.ext
    match a with
    | ⟨0, _⟩ => show win0_1.index t (0 : Fin 2) * 128 + 1 * r.val = 128 * t.val + r.val; omega
    | ⟨1, _⟩ => show win0_1.index t (1 : Fin 2) * 8192 + 1 * k.val = k.val; omega
  rw [h]

theorem traceBlock_at (c : Dev nD) (t : Fin cfg0.N) (r : Fin 128) (k : Fin 8192) :
    iblk m c 4 t (ix2 r k) = argE m c (ix2 (neuron (pt t) r) k) := by
  show V m c main_arg4 (((cfg0.win 4).blk t).view.emb (ix2 r k)) = _
  rw [V_main_arg4]
  obtain ⟨-, -, -, -, -, -, -, -, e0, e1, -⟩ := idx_facts t
  have h : ((cfg0.win 4).blk t).view.emb (ix2 r k) = ix2 (neuron (pt t) r) k := by
    funext a; apply Fin.ext
    match a with
    | ⟨0, _⟩ => show win0_4.index t (0 : Fin 2) * 128 + 1 * r.val = 128 * t.val + r.val; omega
    | ⟨1, _⟩ => show win0_4.index t (1 : Fin 2) * 8192 + 1 * k.val = k.val; omega
  rw [h]

theorem potentialBlock_at (c : Dev nD) (t : Fin cfg0.N) (r : Fin 128) :
    iblk m c 2 t (ix2 (0 : Fin 1) r) = argM m c (ix1 (neuron (pt t) r)) := by
  show V m c main_v0 (((cfg0.win 2).blk t).view.emb (ix2 (0 : Fin 1) r)) = _
  obtain ⟨-, -, -, -, e0, e1, -⟩ := idx_facts t
  have h : ((cfg0.win 2).blk t).view.emb (ix2 (0 : Fin 1) r) = ix2 (0 : Fin 1) (neuron (pt t) r) := by
    funext a; apply Fin.ext
    match a with
    | ⟨0, _⟩ => show win0_2.index t (0 : Fin 2) * 1 + 1 * 0 = 0; omega
    | ⟨1, _⟩ => show win0_2.index t (1 : Fin 2) * 128 + 1 * r.val = 128 * t.val + r.val; omega
  rw [h, potentialRow_eq]
  exact shapeCast_a_1a_apply _ _ _ _

theorem thresholdBlock_at (c : Dev nD) (t : Fin cfg0.N) (r : Fin 128) :
    iblk m c 3 t (ix2 (0 : Fin 1) r) = argTh m c (ix1 (neuron (pt t) r)) := by
  show V m c main_v1 (((cfg0.win 3).blk t).view.emb (ix2 (0 : Fin 1) r)) = _
  obtain ⟨-, -, -, -, -, -, e0, e1, -⟩ := idx_facts t
  have h : ((cfg0.win 3).blk t).view.emb (ix2 (0 : Fin 1) r) = ix2 (0 : Fin 1) (neuron (pt t) r) := by
    funext a; apply Fin.ext
    match a with
    | ⟨0, _⟩ => show win0_3.index t (0 : Fin 2) * 1 + 1 * 0 = 0; omega
    | ⟨1, _⟩ => show win0_3.index t (1 : Fin 2) * 128 + 1 * r.val = 128 * t.val + r.val; omega
  rw [h, thresholdRow_eq]
  exact shapeCast_a_1a_apply _ _ _ _

/-! ## What a point computes, at coordinates -/

theorem fired_at (c : Dev nD) (t : Fin cfg0.N) (r : Fin 128) :
    k0_pay2 (F := Ideal) (iblk m c 0 t) (iblk m c 1 t) (iblk m c 2 t) (iblk m c 3 t) (ix2 (0 : Fin 1) r) = fire (argX m c) (argW m c) (argM m c) (argTh m c) (neuron (pt t) r) :=
  (Payload.fire_at (iblk m c 0 t) (iblk m c 1 t) (iblk m c 2 t) (iblk m c 3 t) r).trans
    (BlockSpec.fire_eq (argX m c) (argW m c) (argM m c) (argTh m c) (iblk m c 0 t) (iblk m c 1 t) (iblk m c 2 t) (iblk m c 3 t) (pt t)
      (spikeBlock_at m c t) (stateBlock_at m c t) (potentialBlock_at m c t) (thresholdBlock_at m c t) r)

theorem resetValue_at (c : Dev nD) (t : Fin cfg0.N) (r : Fin 128) :
    k0_pay3 (F := Ideal) (iblk m c 0 t) (iblk m c 1 t) (iblk m c 2 t) (iblk m c 3 t) (ix2 (0 : Fin 1) r) = reset (argX m c) (argW m c) (argM m c) (argTh m c) (neuron (pt t) r) :=
  (Payload.reset_at (iblk m c 0 t) (iblk m c 1 t) (iblk m c 2 t) (iblk m c 3 t) r).trans
    (BlockSpec.reset_eq (argX m c) (argW m c) (argM m c) (argTh m c) (iblk m c 0 t) (iblk m c 1 t) (iblk m c 2 t) (iblk m c 3 t) (pt t)
      (spikeBlock_at m c t) (stateBlock_at m c t) (potentialBlock_at m c t) (thresholdBlock_at m c t) r)

/-- Column `col` lies in stretch `col / 2048`, at position `col mod 2048`. -/
theorem input_div_mod (col : Fin 8192) (hk : col.val / 2048 < 4) :
    input (col.val / 2048) hk ⟨col.val % 2048, Nat.mod_lt _ (by decide)⟩ = col :=
  Fin.ext (by show 2048 * (col.val / 2048) + col.val % 2048 = col.val; omega)

/-- The stretch of the old trace block trip `k` loads holds the argument's rows at inputs `2048·k + j`, -/
theorem traceStretch_at (c : Dev nD) (t : Fin cfg0.N) (k : Fin k0_t1_loop.trips) (hk : k.val < 4) (r : Fin 128) (j : Fin 2048) :
    View.ld (iblk m c 4 t) (stretch k) (ix2 r j) = argE m c (ix2 (neuron (pt t) r) (input k.val hk j)) := by
  show iblk m c 4 t ((stretch k).emb (ix2 r j)) = _
  have h : (stretch k).emb (ix2 r j) = ix2 r (input k.val hk j) := by
    funext a; apply Fin.ext
    match a with
    | ⟨0, _⟩ => exact stretch_emb_row k (ix2 r j)
    | ⟨1, _⟩ => exact stretch_emb_col k (ix2 r j)
  rw [h, traceBlock_at]

/-- and the stretch of the spike row it loads holds the spikes of those inputs. -/
theorem spikeStretch_at (c : Dev nD) (t : Fin cfg0.N) (k : Fin k0_t1_loop.trips) (hk : k.val < 4) (j : Fin 2048) :
    View.ld (iblk m c 0 t) (stretchRow k) (ix2 (0 : Fin 1) j) = argX m c (ix2 (0 : Fin 1) (input k.val hk j)) := by
  show iblk m c 0 t ((stretchRow k).emb (ix2 (0 : Fin 1) j)) = _
  have h : (stretchRow k).emb (ix2 (0 : Fin 1) j) = ix2 (0 : Fin 1) (input k.val hk j) := by
    funext a; apply Fin.ext
    match a with
    | ⟨0, _⟩ =>
      rw [Rect.emb_apply]; show (k0_off2 k) 0 + 1 * 0 = 0; rw [k0_off2_eq k]; rfl
    | ⟨1, _⟩ =>
      rw [Rect.emb_apply]; show (k0_off2 k) 1 + 1 * j.val = 2048 * k.val + j.val; rw [k0_off2_eq k]
      show 2048 * k.val + 1 * j.val = _; omega
  rw [h, spikeBlock_at]

theorem traceValue_at (c : Dev nD) (t : Fin cfg0.N) (r : Fin 128) (col : Fin 8192) :
    traceBlock (F := Ideal) (iblk m c 0 t) (iblk m c 1 t) (iblk m c 2 t) (iblk m c 3 t) (iblk m c 4 t) (ix2 r col)
      = trace (argX m c) (argW m c) (argM m c) (argTh m c) (argE m c) (neuron (pt t) r) col := by
  have hk : (stretchOf (ix2 r col)).val < 4 := by
    show col.val / 2048 < 4
    have := col.isLt; omega
  have hw : within (ix2 r col) = ix2 r (⟨col.val % 2048, Nat.mod_lt _ (by decide)⟩ : Fin 2048) := by
    funext a; apply Fin.ext
    match a with
    | ⟨0, _⟩ => rfl
    | ⟨1, _⟩ => rfl
  show k0_pay4 (F := Ideal) (iblk m c 0 t) (iblk m c 1 t) (iblk m c 2 t) (iblk m c 3 t) (View.ld (iblk m c 4 t) (stretch (stretchOf (ix2 r col))))
      (View.ld (iblk m c 0 t) (stretchRow (stretchOf (ix2 r col)))) (within (ix2 r col)) = _
  rw [hw]
  refine (Payload.update_at (iblk m c 0 t) (iblk m c 1 t) (iblk m c 2 t) (iblk m c 3 t) _ _ r _).trans ?_
  refine (BlockSpec.update_eq (argX m c) (argW m c) (argM m c) (argTh m c) (argE m c) (iblk m c 0 t) (iblk m c 1 t) (iblk m c 2 t) (iblk m c 3 t) (pt t)
    (spikeBlock_at m c t) (stateBlock_at m c t) (potentialBlock_at m c t) (thresholdBlock_at m c t)
    _ _ (stretchOf (ix2 r col)).val hk
    (traceStretch_at m c t (stretchOf (ix2 r col)) hk) (spikeStretch_at m c t (stretchOf (ix2 r col)) hk) r _).trans ?_
  exact congrArg _ (input_div_mod col hk)

/-! ## What each point writes back -/

theorem flushed_fired (c : Dev nD) (t : Fin cfg0.N) :
    (dats m 0 c).flushed 5 t
      = ((cfg0.win 5).blk t).view.read (Elt Ideal) (fireRow (argX m c) (argW m c) (argM m c) (argTh m c)) := by
  show (cfg0.win 5).cut (grid0.coords t) ((dats m 0 c).after 5 t) = _
  rw [after0_5]
  unfold outsAt0
  dsimp only
  have e := firedBlock_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t)
  rw [e]
  obtain ⟨-, -, -, -, -, -, -, -, -, -, e0, e1, -⟩ := idx_facts t
  funext y
  obtain ⟨u, r, rfl⟩ : ∃ (u : Fin 1) (r : Fin 128), y = ix2 u r := ⟨y 0, y 1, eq_ix2 y⟩
  obtain rfl : u = 0 := Subsingleton.elim _ _
  show k0_pay2 (F := Ideal) (iblk m c 0 t) (iblk m c 1 t) (iblk m c 2 t) (iblk m c 3 t) (ix2 (0 : Fin 1) r)
    = fire (argX m c) (argW m c) (argM m c) (argTh m c) ((((cfg0.win 5).blk t).view.emb (ix2 (0 : Fin 1) r)) 1)
  rw [fired_at]
  refine congrArg _ (Fin.ext ?_)
  show 128 * t.val + r.val = win0_5.index t (1 : Fin 2) * 128 + 1 * r.val
  omega

theorem flushed_reset (c : Dev nD) (t : Fin cfg0.N) :
    (dats m 0 c).flushed 6 t
      = ((cfg0.win 6).blk t).view.read (Elt Ideal) (resetRow (argX m c) (argW m c) (argM m c) (argTh m c)) := by
  show (cfg0.win 6).cut (grid0.coords t) ((dats m 0 c).after 6 t) = _
  rw [after0_6]
  unfold outsAt0
  dsimp only
  have e := resetBlock_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t)
  rw [e]
  obtain ⟨-, -, -, -, -, -, -, -, -, -, -, -, e0, e1, -⟩ := idx_facts t
  funext y
  obtain ⟨u, r, rfl⟩ : ∃ (u : Fin 1) (r : Fin 128), y = ix2 u r := ⟨y 0, y 1, eq_ix2 y⟩
  obtain rfl : u = 0 := Subsingleton.elim _ _
  show k0_pay3 (F := Ideal) (iblk m c 0 t) (iblk m c 1 t) (iblk m c 2 t) (iblk m c 3 t) (ix2 (0 : Fin 1) r)
    = reset (argX m c) (argW m c) (argM m c) (argTh m c) ((((cfg0.win 6).blk t).view.emb (ix2 (0 : Fin 1) r)) 1)
  rw [resetValue_at]
  refine congrArg _ (Fin.ext ?_)
  show 128 * t.val + r.val = win0_6.index t (1 : Fin 2) * 128 + 1 * r.val
  omega

theorem flushed_trace (c : Dev nD) (t : Fin cfg0.N) :
    (dats m 0 c).flushed 7 t
      = ((cfg0.win 7).blk t).view.read (Elt Ideal) (traceMat (argX m c) (argW m c) (argM m c) (argTh m c) (argE m c)) := by
  show (cfg0.win 7).cut (grid0.coords t) ((dats m 0 c).after 7 t) = _
  rw [after0_7]
  unfold outsAt0
  dsimp only
  have e := traceBlock_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t)
  rw [e]
  obtain ⟨-, -, -, -, -, -, -, -, -, -, -, -, -, -, e0, e1⟩ := idx_facts t
  funext y
  obtain ⟨r, col, rfl⟩ : ∃ (r : Fin 128) (col : Fin 8192), y = ix2 r col := ⟨y 0, y 1, eq_ix2 y⟩
  show traceBlock (F := Ideal) (iblk m c 0 t) (iblk m c 1 t) (iblk m c 2 t) (iblk m c 3 t) (iblk m c 4 t) (ix2 r col)
    = trace (argX m c) (argW m c) (argM m c) (argTh m c) (argE m c) ((((cfg0.win 7).blk t).view.emb (ix2 r col)) 0)
        ((((cfg0.win 7).blk t).view.emb (ix2 r col)) 1)
  rw [traceValue_at]
  have h0 : neuron (pt t) r = (((cfg0.win 7).blk t).view.emb (ix2 r col)) 0 := Fin.ext (by
    show 128 * t.val + r.val = win0_7.index t (0 : Fin 2) * 128 + 1 * r.val; omega)
  have h1 : col = (((cfg0.win 7).blk t).view.emb (ix2 r col)) 1 := Fin.ext (by
    show col.val = win0_7.index t (1 : Fin 2) * 8192 + 1 * col.val; omega)
  rw [← h0, ← h1]

end Cert.KernelIdeal.Arrays

end
-- ==== Proof.KResults.lean ====
/-
  The kernel's run, read: after it the three results hold the specification's vectors and matrix of the arguments.

  The 64 grid points' blocks tile each output array (point `i / 128` covers entry or row `i`), every point writes the
  specification through its block, so each array ends at the specification. The two 1 × 8192 rows are then reshaped
  to vectors by the host, which reads entry `(0, o)` of the row as entry `o`.
-/
import proofs.«167468_j10840497455709_2_alg».proof.Proof.KArrays

set_option maxRecDepth 16384

noncomputable section

namespace Cert.KernelIdeal.Results

open Cert.KernelIdeal Cert.KernelIdeal.Gen
open Idealize.ShloMosaic Idealize.ShloMosaic.TcCoe Idealize.ShloMosaic.ValueIdx Idealize.ShloMosaic.StableHlo
open Idealize.SL Idealize.SL.Sem
open Cert.Spec Cert.KernelIdeal.Arrays

variable (m : (ℓ : Loc nD τ sig) → Buf (Elt Ideal) ℓ) (ρ : Dev nD → PrngReg)

/-! ## The blocks tile the arrays -/

theorem mem_firedBlock (t : Fin cfg0.N) (i : S1x8192.Idx) :
    i ∈ ((cfg0.win 5).blk t).view.set ↔ ∀ a : Fin 2, win0_5.index t a * S1x128.size a ≤ (i a).val
      ∧ (i a).val < win0_5.index t a * S1x128.size a + S1x128.size a := by
  show i ∈ ((View.whole main_v2_0).slice (win0_5.rect t)).set ↔ _
  rw [View.set_slice_whole, Rect.mem_set_unit]
  exact Iff.rfl

theorem mem_resetBlock (t : Fin cfg0.N) (i : S1x8192.Idx) :
    i ∈ ((cfg0.win 6).blk t).view.set ↔ ∀ a : Fin 2, win0_6.index t a * S1x128.size a ≤ (i a).val
      ∧ (i a).val < win0_6.index t a * S1x128.size a + S1x128.size a := by
  show i ∈ ((View.whole main_v2_1).slice (win0_6.rect t)).set ↔ _
  rw [View.set_slice_whole, Rect.mem_set_unit]
  exact Iff.rfl

theorem mem_traceBlock (t : Fin cfg0.N) (i : S8192x8192.Idx) :
    i ∈ ((cfg0.win 7).blk t).view.set ↔ ∀ a : Fin 2, win0_7.index t a * S128x8192.size a ≤ (i a).val
      ∧ (i a).val < win0_7.index t a * S128x8192.size a + S128x8192.size a := by
  show i ∈ ((View.whole main_v2_2).slice (win0_7.rect t)).set ↔ _
  rw [View.set_slice_whole, Rect.mem_set_unit]
  exact Iff.rfl

/-- The point whose block holds entry (or row) `n`. -/
def pointOf (n : ℕ) (hn : n < 8192) : Fin cfg0.N := ⟨n / 128, by rw [show cfg0.N = 64 from N_0]; omega⟩

theorem cover_fired (i : S1x8192.Idx) :
    ∃ t : Fin cfg0.N, (cfg0.win 5).flush t = true ∧ i ∈ ((cfg0.win 5).blk t).view.set := by
  have h0 : (i 0).val < 1 := (i 0).isLt
  have h1 : (i 1).val < 8192 := (i 1).isLt
  refine ⟨pointOf (i 1).val h1, flush0_5 _, ?_⟩
  obtain ⟨-, -, -, -, -, -, -, -, -, -, e0, e1, -⟩ := idx_facts (pointOf (i 1).val h1)
  have hv : (pointOf (i 1).val h1).val = (i 1).val / 128 := rfl
  rw [mem_firedBlock]
  intro a
  match a with
  | ⟨0, _⟩ =>
    show win0_5.index _ (0 : Fin 2) * 1 ≤ (i 0).val ∧ (i 0).val < win0_5.index _ (0 : Fin 2) * 1 + 1
    omega
  | ⟨1, _⟩ =>
    show win0_5.index _ (1 : Fin 2) * 128 ≤ (i 1).val ∧ (i 1).val < win0_5.index _ (1 : Fin 2) * 128 + 128
    omega

theorem cover_reset (i : S1x8192.Idx) :
    ∃ t : Fin cfg0.N, (cfg0.win 6).flush t = true ∧ i ∈ ((cfg0.win 6).blk t).view.set := by
  have h0 : (i 0).val < 1 := (i 0).isLt
  have h1 : (i 1).val < 8192 := (i 1).isLt
  refine ⟨pointOf (i 1).val h1, flush0_6 _, ?_⟩
  obtain ⟨-, -, -, -, -, -, -, -, -, -, -, -, e0, e1, -⟩ := idx_facts (pointOf (i 1).val h1)
  have hv : (pointOf (i 1).val h1).val = (i 1).val / 128 := rfl
  rw [mem_resetBlock]
  intro a
  match a with
  | ⟨0, _⟩ =>
    show win0_6.index _ (0 : Fin 2) * 1 ≤ (i 0).val ∧ (i 0).val < win0_6.index _ (0 : Fin 2) * 1 + 1
    omega
  | ⟨1, _⟩ =>
    show win0_6.index _ (1 : Fin 2) * 128 ≤ (i 1).val ∧ (i 1).val < win0_6.index _ (1 : Fin 2) * 128 + 128
    omega

theorem cover_trace (i : S8192x8192.Idx) :
    ∃ t : Fin cfg0.N, (cfg0.win 7).flush t = true ∧ i ∈ ((cfg0.win 7).blk t).view.set := by
  have h0 : (i 0).val < 8192 := (i 0).isLt
  have h1 : (i 1).val < 8192 := (i 1).isLt
  refine ⟨pointOf (i 0).val h0, flush0_7 _, ?_⟩
  obtain ⟨-, -, -, -, -, -, -, -, -, -, -, -, -, -, e0, e1⟩ := idx_facts (pointOf (i 0).val h0)
  have hv : (pointOf (i 0).val h0).val = (i 0).val / 128 := rfl
  rw [mem_traceBlock]
  intro a
  match a with
  | ⟨0, _⟩ =>
    show win0_7.index _ (0 : Fin 2) * 128 ≤ (i 0).val ∧ (i 0).val < win0_7.index _ (0 : Fin 2) * 128 + 128
    omega
  | ⟨1, _⟩ =>
    show win0_7.index _ (1 : Fin 2) * 8192 ≤ (i 1).val ∧ (i 1).val < win0_7.index _ (1 : Fin 2) * 8192 + 8192
    omega

/-! ## The arrays after the region -/

theorem final_fired (c : Dev nD) : (dats m 0 c).arrAt 5 cfg0.N = fireRow (argX m c) (argW m c) (argM m c) (argTh m c) :=
  (dats m 0 c).arrAt_eq_of_cover 5 _ (fun t _ => flushed_fired m c t) cover_fired

theorem final_reset (c : Dev nD) : (dats m 0 c).arrAt 6 cfg0.N = resetRow (argX m c) (argW m c) (argM m c) (argTh m c) :=
  (dats m 0 c).arrAt_eq_of_cover 6 _ (fun t _ => flushed_reset m c t) cover_reset

theorem final_trace (c : Dev nD) : (dats m 0 c).arrAt 7 cfg0.N = traceMat (argX m c) (argW m c) (argM m c) (argTh m c) (argE m c) :=
  (dats m 0 c).arrAt_eq_of_cover 7 _ (fun t _ => flushed_trace m c t) cover_trace

/-! ## The two reshapes after the region -/

theorem tail_fired (c : Dev nD) :
    Pipeline.afterTail₀ cfgs (dats m) 0 (V0 m) [hostOps1] c main_v3 = fireVec (argX m c) (argW m c) (argM m c) (argTh m c) := by
  unfold Pipeline.afterTail₀
  show StableHlo.after hostOps1 _ (Proc.devRef .tc main_v3) = _
  after_results
  have hw : Pipeline.withArrays (cfgs 0).spec c (V0 m c) (fun w => (dats m 0 c).arrAt w (cfgs 0).N)
      (Proc.tc.devRef main_v2_0) = fireRow (argX m c) (argW m c) (argM m c) (argTh m c) :=
    (Pipeline.withArrays_arr spec0 launch0.win.arr_inj c _ _ 5).trans (final_fired m c)
  rw [hw]
  funext i
  obtain ⟨o, rfl⟩ : ∃ o : Fin 8192, i = ix1 o := ⟨i 0, eq_ix1 i⟩
  exact shapeCast_1a_a_apply (fireRow (argX m c) (argW m c) (argM m c) (argTh m c)) shapeCasts_S1x8192_S8192 o

theorem tail_reset (c : Dev nD) :
    Pipeline.afterTail₀ cfgs (dats m) 0 (V0 m) [hostOps1] c main_v4 = resetVec (argX m c) (argW m c) (argM m c) (argTh m c) := by
  unfold Pipeline.afterTail₀
  show StableHlo.after hostOps1 _ (Proc.devRef .tc main_v4) = _
  after_results
  have hw : Pipeline.withArrays (cfgs 0).spec c (V0 m c) (fun w => (dats m 0 c).arrAt w (cfgs 0).N)
      (Proc.tc.devRef main_v2_1) = resetRow (argX m c) (argW m c) (argM m c) (argTh m c) :=
    (Pipeline.withArrays_arr spec0 launch0.win.arr_inj c _ _ 6).trans (final_reset m c)
  rw [hw]
  funext i
  obtain ⟨o, rfl⟩ : ∃ o : Fin 8192, i = ix1 o := ⟨i 0, eq_ix1 i⟩
  exact shapeCast_1a_a_apply (resetRow (argX m c) (argW m c) (argM m c) (argTh m c)) shapeCasts_S1x8192_S8192 o

/-! ## The run -/

/-- Every weakly fair execution of the kernel's program ends with the three results at the specification of the
    launch contents of the arguments, and the arguments as launched. -/
theorem run : θ_run defs (onTc (τ := τ) (main (F := Ideal))) ⟨m, fun _ => 0, ρ⟩ (fun r => ∀ c : Dev nD,
      r.2.mem ((c.tc : Thread nD τ).loc main_v3) = fireVec (argX m c) (argW m c) (argM m c) (argTh m c)
      ∧ r.2.mem ((c.tc : Thread nD τ).loc main_v4) = resetVec (argX m c) (argW m c) (argM m c) (argTh m c)
      ∧ r.2.mem ((c.tc : Thread nD τ).loc main_v2_2) = traceMat (argX m c) (argW m c) (argM m c) (argTh m c) (argE m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v3 (Pipeline.mem_restRefs_of main_v3 (by decide) (by decide))).trans (tail_fired m c),
      ((h c).2 main_v4 (Pipeline.mem_restRefs_of main_v4 (by decide) (by decide))).trans (tail_reset m c),
      ((h c).1 7).trans (final_trace m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c)))⟩)
    (run_main m ρ)

end Cert.KernelIdeal.Results

end
-- ==== Proof.lean ====
/-
  A spiking layer's step: kernel against reference, on the extended reals.

  For 8192 neurons with 8192 inputs each, from the input spike row `x`, the synapse states `w`, the membrane
  potentials `mem`, the thresholds `thr` and the eligibility traces `e`, both programs compute
    cur o   = ∑ k, x k · [w o k > 50]                      (the inputs over the conducting synapses),
    v o     = mem o · c₀.₆ + cur o,
    fire o  = [v o ≥ thr o],
    reset o = v o · (1 − fire o) · c₀.₃,
    trace o i = min 3 (max 0 (e o i · c₀.₇ + fire o · x i)),
  with the same binary32 constants, in the same order of operations. The kernel works on 128 neurons per grid point:
  its current is a matrix product of the spike row with the block's gate matrix (at exact arithmetic the sum above,
  the change of float format on the way in being the identity), its gate is the comparison's bit widened and converted
  as a signed integer (0 or 1, as the reference's unsigned conversion), and it writes the trace block in four column
  stretches; the reference transposes the gate matrix and contracts. Neither side needs the inputs to be finite: no
  law of arithmetic is used beyond reading each program's operations at an index.

  `Spec` states the three results as functions of the arguments; `RefSide` reads the reference's run as `Spec`;
  `KBody`, `KPayload`, `KBlockSpec`, `KArrays`, `KResults` read the kernel's run as `Spec`. The idealization
  rewrote nothing, so the kernel and its idealized reading are the same text.
-/
import proofs.«167468_j10840497455709_2_alg».proof.Defs
import proofs.«167468_j10840497455709_2_alg».proof.Proof.Gen.Kernel
import proofs.«167468_j10840497455709_2_alg».proof.Proof.Gen.Kernel.Skeleton
import proofs.«167468_j10840497455709_2_alg».proof.Proof.Gen.Kernel.Loops
import proofs.«167468_j10840497455709_2_alg».proof.Proof.Gen.Kernel.Launch
import proofs.«167468_j10840497455709_2_alg».proof.Proof.Gen.Kernel.Points
import proofs.«167468_j10840497455709_2_alg».proof.Proof.Gen.Kernel.Frame
import proofs.«167468_j10840497455709_2_alg».proof.Proof.Gen.KernelIdeal
import proofs.«167468_j10840497455709_2_alg».proof.Proof.Gen.KernelIdeal.Skeleton
import proofs.«167468_j10840497455709_2_alg».proof.Proof.Gen.KernelIdeal.Loops
import proofs.«167468_j10840497455709_2_alg».proof.Proof.Gen.KernelIdeal.Launch
import proofs.«167468_j10840497455709_2_alg».proof.Proof.Gen.KernelIdeal.Points
import proofs.«167468_j10840497455709_2_alg».proof.Proof.Gen.KernelIdeal.Frame
import proofs.«167468_j10840497455709_2_alg».proof.Proof.Gen.ReferenceIdeal
import proofs.«167468_j10840497455709_2_alg».proof.Proof.Gen.ReferenceIdeal.Run
import proofs.«167468_j10840497455709_2_alg».proof.Proof.Gen.ReferenceIdeal.Read
import proofs.«167468_j10840497455709_2_alg».proof.Proof.Gen.Pre_finite_inputs
import proofs.«167468_j10840497455709_2_alg».proof.Proof.RefSide
import proofs.«167468_j10840497455709_2_alg».proof.Proof.KResults
import Idealize.ShloMosaic.Adequacy
import Idealize.ShloMosaic.Init

noncomputable section

namespace Cert.Proof

open Idealize.ShloMosaic Idealize.ShloMosaic.TcCoe Idealize.SL.Sem

/-- The kernel's program runs and leaves its arguments as launched. -/
theorem frame_kernel : Cert.frame_Kernel := fun m ρ _ => Cert.Kernel.Gen.frame m ρ

/-- So does its reading at exact arithmetic. -/
theorem frame_kernelIdeal : Cert.frame_KernelIdeal := fun m ρ _ => Cert.KernelIdeal.Gen.frame m ρ

/-- The reference's run, with its three results dropped, is its frame. -/
theorem frame_reference : Cert.frame_ReferenceIdeal := fun m ρ _ =>
  (θ_run Cert.ReferenceIdeal.defs _ _).mono (fun _ h c => (h c).2.2.2) (Cert.ReferenceIdeal.Value.run (F := Ideal) m ρ)

/-- Nothing was rewritten between the kernel and its exact reading. -/
theorem preserves : Cert.preserves_Kernel_KernelIdeal := trivial

/-- From memories that agree on the five arguments, both programs end with the specification's fired vector, reset
    vector and trace matrix of those arguments. -/
theorem algebraic : Cert.algebraic_KernelIdeal_ReferenceIdeal := by
  intro m ρ m' ρ' _ hagree
  refine ⟨_, _, _, Cert.KernelIdeal.Results.run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · refine (Cert.ReferenceIdeal.Read.val_main_v10_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))).trans ?_
    rw [Cert.RefSide.fire_eq, (hagree c).1, (hagree c).2.1, (hagree c).2.2.1, (hagree c).2.2.2.1]
  · refine (Cert.ReferenceIdeal.Read.val_main_v25_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))).trans ?_
    rw [Cert.RefSide.reset_eq, (hagree c).1, (hagree c).2.1, (hagree c).2.2.1, (hagree c).2.2.2.1]
  · refine (Cert.ReferenceIdeal.Read.val_main_v20_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))).trans ?_
    rw [Cert.RefSide.trace_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
